-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x2 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x2 .f32) (main_arg9 : FVec F S2 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S4000x128 : Shape := ⟨2, ![4000, 128]⟩
abbrev S4000x1 : Shape := ⟨2, ![4000, 1]⟩
abbrev S1x128 : Shape := ⟨2, ![1, 128]⟩
abbrev S40000x2 : Shape := ⟨2, ![40000, 2]⟩
abbrev S4000x2 : Shape := ⟨2, ![4000, 2]⟩
abbrev S1x2 : Shape := ⟨2, ![1, 2]⟩

abbrev nBuf : Space → Nat
  | .hbm => 56
  | .vmem => 24
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x2, .f32⟩
  | .hbm, ⟨9, _⟩ => ⟨S2, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S640000, .f32⟩
  | .hbm, ⟨16, _⟩ => ⟨S_, .f32⟩
  | .hbm, ⟨17, _⟩ => ⟨S40000, .f32⟩
  | .hbm, ⟨18, _⟩ => ⟨S640000x1, .i32⟩
  | .hbm, ⟨19, _⟩ => ⟨S40000, .f32⟩
  | .hbm, ⟨20, _⟩ => ⟨S_, .f32⟩
  | .hbm, ⟨21, _⟩ => ⟨S40000, .f32⟩
  | .hbm, ⟨22, _⟩ => ⟨S40000, .f32⟩
  | .hbm, ⟨23, _⟩ => ⟨S_, .f32⟩
  | .hbm, ⟨24, _⟩ => ⟨S40000, .f32⟩
  | .hbm, ⟨25, _⟩ => ⟨S40000, .f32⟩
  | .hbm, ⟨26, _⟩ => ⟨S40000x1, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S_, .f32⟩
  | .hbm, ⟨37, _⟩ => ⟨S40000x128, .f32⟩
  | .hbm, ⟨38, _⟩ => ⟨S640000x1, .i32⟩
  | .hbm, ⟨39, _⟩ => ⟨S40000x128, .f32⟩
  | .hbm, ⟨40, _⟩ => ⟨S40000x128, .bf16⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .bf16⟩
  | .hbm, ⟨50, _⟩ => ⟨S640000x128, .f32⟩
  | .hbm, ⟨51, _⟩ => ⟨S_, .f32⟩
  | .hbm, ⟨52, _⟩ => ⟨S40000x128, .f32⟩
  | .hbm, ⟨53, _⟩ => ⟨S640000x1, .i32⟩
  | .hbm, ⟨54, _⟩ => ⟨S40000x128, .f32⟩
  | .hbm, ⟨55, _⟩ => ⟨S40000x2, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128x2, .f32⟩
  | .local _ .vmem, ⟨21, _⟩ => ⟨S2, .f32⟩
  | .local _ .vmem, ⟨22, _⟩ => ⟨S4000x2, .f32⟩
  | .local _ .vmem, ⟨23, _⟩ => ⟨S4000x2, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  bcast_S_S40000x128 : S_.BroadcastsInDim S40000x128 (![] : Fin 0 → Fin S40000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S40000x1.size a
  hwx0_2 : ∀ i : grid0.Coords, EltTy.bits .f32 = 32 ∨ (Rect.block (s := S40000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S40000x128.size a
  hwx0_6 : ∀ i : grid0.Coords, EltTy.bits .bf16 = 32 ∨ (Rect.block (s := S40000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .bf16 = 32 ∨ (Rect.block (s := S40000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S40000x1.size a
  hwx1_2 : ∀ i : grid1.Coords, EltTy.bits .f32 = 32 ∨ (Rect.block (s := S40000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .f32 = 32 ∨ (Rect.block (s := S128x2) S128x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2.size a ≤ S2.size a
  hwx1_7 : ∀ i : grid1.Coords, EltTy.bits .f32 = 32 ∨ (Rect.block (s := S2) S2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x2.size a ≤ S40000x2.size a
  hwx1_8 : ∀ i : grid1.Coords, EltTy.bits .f32 = 32 ∨ (Rect.block (s := S40000x2) S4000x2.size (cc1_transform_8 i) (hinb1_8 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S4000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S40000x2 : Shape := ⟨2, ![40000, 2]⟩
abbrev S1x2 : Shape := ⟨2, ![1, 2]⟩

abbrev nBuf : Space → Nat
  | .hbm => 86
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x2, .f32⟩
  | .hbm, ⟨9, _⟩ => ⟨S2, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S40000, .f32⟩
  | .hbm, ⟨31, _⟩ => ⟨S640000x1, .i32⟩
  | .hbm, ⟨32, _⟩ => ⟨S40000, .f32⟩
  | .hbm, ⟨33, _⟩ => ⟨S_, .f32⟩
  | .hbm, ⟨34, _⟩ => ⟨S40000, .f32⟩
  | .hbm, ⟨35, _⟩ => ⟨S40000, .f32⟩
  | .hbm, ⟨36, _⟩ => ⟨S40000x1, .f32⟩
  | .hbm, ⟨37, _⟩ => ⟨S40000x128, .f32⟩
  | .hbm, ⟨38, _⟩ => ⟨S40000x128, .f32⟩
  | .hbm, ⟨39, _⟩ => ⟨S40000x128, .f32⟩
  | .hbm, ⟨40, _⟩ => ⟨S1x128, .f32⟩
  | .hbm, ⟨41, _⟩ => ⟨S40000x128, .f32⟩
  | .hbm, ⟨42, _⟩ => ⟨S40000x128, .f32⟩
  | .hbm, ⟨43, _⟩ => ⟨S40000x128, .f32⟩
  | .hbm, ⟨44, _⟩ => ⟨S40000x128, .f32⟩
  | .hbm, ⟨45, _⟩ => ⟨S_, .f32⟩
  | .hbm, ⟨46, _⟩ => ⟨S40000x128, .f32⟩
  | .hbm, ⟨47, _⟩ => ⟨S40000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S40000x128, .f32⟩
  | .hbm, ⟨59, _⟩ => ⟨S640000x1, .i32⟩
  | .hbm, ⟨60, _⟩ => ⟨S40000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S40000, .f32⟩
  | .hbm, ⟨65, _⟩ => ⟨S640000x1, .i32⟩
  | .hbm, ⟨66, _⟩ => ⟨S40000, .f32⟩
  | .hbm, ⟨67, _⟩ => ⟨S_, .f32⟩
  | .hbm, ⟨68, _⟩ => ⟨S40000, .f32⟩
  | .hbm, ⟨69, _⟩ => ⟨S40000, .f32⟩
  | .hbm, ⟨70, _⟩ => ⟨S40000x1, .f32⟩
  | .hbm, ⟨71, _⟩ => ⟨S40000x128, .f32⟩
  | .hbm, ⟨72, _⟩ => ⟨S40000x128, .f32⟩
  | .hbm, ⟨73, _⟩ => ⟨S40000x128, .f32⟩
  | .hbm, ⟨74, _⟩ => ⟨S1x128, .f32⟩
  | .hbm, ⟨75, _⟩ => ⟨S40000x128, .f32⟩
  | .hbm, ⟨76, _⟩ => ⟨S40000x128, .f32⟩
  | .hbm, ⟨77, _⟩ => ⟨S40000x128, .f32⟩
  | .hbm, ⟨78, _⟩ => ⟨S40000x128, .f32⟩
  | .hbm, ⟨79, _⟩ => ⟨S_, .f32⟩
  | .hbm, ⟨80, _⟩ => ⟨S40000x128, .f32⟩
  | .hbm, ⟨81, _⟩ => ⟨S40000x128, .f32⟩
  | .hbm, ⟨82, _⟩ => ⟨S40000x2, .f32⟩
  | .hbm, ⟨83, _⟩ => ⟨S1x2, .f32⟩
  | .hbm, ⟨84, _⟩ => ⟨S40000x2, .f32⟩
  | .hbm, ⟨85, _⟩ => ⟨S40000x2, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S2_S1x2_1 : S2.BroadcastsInDim S1x2 (![1] : Fin 1 → Fin S1x2.rank)
  bcast_S1x2_S40000x2_0_1 : S1x2.BroadcastsInDim S40000x2 (![0, 1] : Fin 2 → Fin S40000x2.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  dot_S40000x128_S128x2_S40000x2_1_0_0_1_n_n_wf : DotDims.WF S40000x128 S128x2 S40000x2 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x2_S40000x2_1_0_0_1_n_n : DotDims S40000x128 S128x2 S40000x2 where
  lhsContracting := [1]
  rhsContracting := [0]
  lhsNonContracting := [0]
  rhsNonContracting := [1]
  lhsBatch := []
  rhsBatch := []
  wf := dot_S40000x128_S128x2_S40000x2_1_0_0_1_n_n_wf

class Facts : Prop extends Facts₀ where

variable [Facts]
-- ==== Proof.KernelRun.lean ====
/-
  The idealized kernel's run with its result named.

  @main is four segments: host operations, the first pipelined region, host operations, the second pipelined region. The
  buffer contents at each boundary are a fold from the launch memory: a stretch of host operations applies each
  operation's function, a region leaves its arrays at what its write-backs made of them and every other buffer as it was.
  Every weakly fair execution terminates without a fault, and in the final state every unscoped buffer holds the last
  boundary's contents; read at the result buffer this names the result, and at each argument it gives back the launch
  contents.
-/
import proofs.«176067_j51067161150195_2_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the argument arrays as launched. -/
theorem run_result : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunResult

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Row-wise reductions kept as a column, read at an index, at the ideal values.
  A vector of a entries cast to an a×1 column reads its entry at the row; an a×1 column broadcast to a×b repeats each
  row's entry along the row; a sum (a maximum) along the rows of an a×b array is, at row i, the sum (the fold of max from
  the accumulator's value) over k < b of the entries (i, k).
-/
import Idealize.ShloMosaic.PureOps.Ideal.Laws
import Idealize.ShloMosaic.Lib.ValueIdx
import Idealize.ShloMosaic.Lib.Pipeline.Value

noncomputable section

namespace Cert.LibColumn

open Idealize.ShloMosaic Idealize.ShloMosaic.ValueIdx

variable {α : Type}

/-- An `[a]` array cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `i` of a sum along the rows, with the column `k` put back, is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum along the rows of an `a × b` array, at row `i`: the sum of that row's entries. -/
theorem rowSum_apply {φ : FTy} {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction (F := Ideal) .add [1] ⟨1, ![a]⟩ src acc h hφ hacc (ix1 i) = ∑ k : Fin b, src (ix2 i k) := by
  rw [Ideal.multiReduction_add_single]
  exact Finset.sum_congr rfl fun k _ => congrArg src (lift_row h i k)

/-- A maximum along the rows of an `a × b` array, at row `i`: the fold of `max` from the accumulator's value over that
    row's entries. -/
theorem rowMax_apply {φ : FTy} {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction (F := Ideal) .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) := funext fun k => congrArg src (lift_row h i k)
  exact congrArg (fun f => Finset.fold max (Ideal.ofBits φ acc) f (Finset.univ : Finset (Fin b))) hf

end Cert.LibColumn

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.Spec.lean ====
/-
  One mean-aggregation graph layer with a cut-off at 0, and a linear head, on the extended reals.

  For M nodes with 128 features each: x is the nodes' own features, s the sums of their in-neighbours' features, r a
  factor per node (the reciprocal of its in-degree, or of 1 when it has no in-neighbour), wl and wr two 128×128 weights
  and b a bias. The layer's value at node a, feature j is
      max (Σ_k (s(a,k)·r(a))·wl(k,j) + Σ_k x(a,k)·wr(k,j) + b(j)) 0 ,
  and the head's value at node a, class j is Σ_k h(a,k)·wfc(k,j) + bfc(j).

  Two spellings of the layer are shown equal to it: the matrix unit's (the mean taken as a product with a column of
  reciprocals, both products into zero accumulators, the bias added last) and the host's (the mean taken as a quotient by
  the clamped in-degree, the bias added between the two products). They agree because a quotient by a nonzero extended
  real is the product with its inverse, because 1/c is that inverse, and because addition of extended reals is
  commutative and associative. A node's value depends on x, s and r only through that node's row, so a block of rows of
  the inputs gives that block of rows of the layer.
-/
import Idealize.ShloMosaic.PureOps.Ideal.Laws
import Idealize.ShloMosaic.Lib.ValueIdx
import Idealize.ShloMosaic.Lib.Pipeline.Value
import Idealize.ShloMosaic.Lib.ValueLayout
import proofs.«176067_j51067161150195_2_alg».proof.Proof.LibPlainDot
import proofs.«176067_j51067161150195_2_alg».proof.Proof.LibColumn
import proofs.«176067_j51067161150195_2_alg».proof.Proof.LibHostBroadcast

noncomputable section

namespace Cert.Sage

open Idealize.ShloMosaic Idealize.ShloMosaic.ValueIdx

/-! ## Scalars -/

/-- The word 0x3F800000 is the number 1. -/
theorem one_f32 : Ideal.ofBits .f32 0x3F800000#32 = 1 := by
  simp [Ideal.ofBits, Ideal.ieee]
  exact_mod_cast (by norm_num : (8388608 : ℝ) * ((2 : ℝ) ^ 23)⁻¹ = 1)

/-- A quotient by a nonzero extended real is the product with its inverse. -/
theorem div_eq_mul_inv {c : EReal} (hc : c ≠ 0) (x : EReal) : Ideal.div x c = x * c⁻¹ := by
  rw [Ideal.div, if_neg hc]

/-- 1 over a nonzero extended real is its inverse. -/
theorem one_div_eq_inv {c : EReal} (hc : c ≠ 0) : Ideal.div 1 c = c⁻¹ := by
  rw [div_eq_mul_inv hc, one_mul]

/-- A count clamped below at 1 is not 0. -/
theorem max_one_ne_zero (n : EReal) : max n 1 ≠ 0 :=
  ne_of_gt (lt_of_lt_of_le zero_lt_one (le_max_right n 1))

/-! ## The layer and the head -/

variable (M : Nat)

/-- The layer: at node a, feature j, max (Σ_k (s(a,k)·r(a))·wl(k,j) + Σ_k x(a,k)·wr(k,j) + b(j)) 0. -/
def layer (x s : (⟨2, ![M, 128]⟩ : Shape).Idx → EReal) (r : Fin M → EReal)
    (wl wr : (⟨2, ![128, 128]⟩ : Shape).Idx → EReal) (b : (⟨1, ![128]⟩ : Shape).Idx → EReal) :
    (⟨2, ![M, 128]⟩ : Shape).Idx → EReal :=
  fun i => max ((∑ k : Fin 128, s (ix2 (i 0) k) * r (i 0) * wl (ix2 k (i 1)))
    + (∑ k : Fin 128, x (ix2 (i 0) k) * wr (ix2 k (i 1))) + b (ix1 (i 1))) 0

theorem layer_apply (x s : (⟨2, ![M, 128]⟩ : Shape).Idx → EReal) (r : Fin M → EReal)
    (wl wr : (⟨2, ![128, 128]⟩ : Shape).Idx → EReal) (b : (⟨1, ![128]⟩ : Shape).Idx → EReal) (a : Fin M) (j : Fin 128) :
    layer M x s r wl wr b (ix2 a j) = max ((∑ k : Fin 128, s (ix2 a k) * r a * wl (ix2 k j))
      + (∑ k : Fin 128, x (ix2 a k) * wr (ix2 k j)) + b (ix1 j)) 0 := rfl

/-- The head: at node a, class j, Σ_k h(a,k)·wfc(k,j) + bfc(j). -/
def head (h : (⟨2, ![M, 128]⟩ : Shape).Idx → EReal) (wfc : (⟨2, ![128, 2]⟩ : Shape).Idx → EReal)
    (bfc : (⟨1, ![2]⟩ : Shape).Idx → EReal) : (⟨2, ![M, 2]⟩ : Shape).Idx → EReal :=
  fun i => (∑ k : Fin 128, h (ix2 (i 0) k) * wfc (ix2 k (i 1))) + bfc (ix1 (i 1))

theorem head_apply (h : (⟨2, ![M, 128]⟩ : Shape).Idx → EReal) (wfc : (⟨2, ![128, 2]⟩ : Shape).Idx → EReal)
    (bfc : (⟨1, ![2]⟩ : Shape).Idx → EReal) (a : Fin M) (j : Fin 2) :
    head M h wfc bfc (ix2 a j) = (∑ k : Fin 128, h (ix2 a k) * wfc (ix2 k j)) + bfc (ix1 j) := rfl

/-! ## Rows -/

/-- Row a' of the layer of a block is row a of the layer of the whole, when row a' of the block's inputs is row a of
    the whole's. -/
theorem layer_rows (M' : Nat) (X S : (⟨2, ![M, 128]⟩ : Shape).Idx → EReal) (R : Fin M → EReal)
    (x s : (⟨2, ![M', 128]⟩ : Shape).Idx → EReal) (r : Fin M' → EReal)
    (wl wr : (⟨2, ![128, 128]⟩ : Shape).Idx → EReal) (b : (⟨1, ![128]⟩ : Shape).Idx → EReal) (a : Fin M) (a' : Fin M')
    (hx : ∀ k : Fin 128, x (ix2 a' k) = X (ix2 a k)) (hs : ∀ k : Fin 128, s (ix2 a' k) = S (ix2 a k)) (hr : r a' = R a)
    (j : Fin 128) : layer M' x s r wl wr b (ix2 a' j) = layer M X S R wl wr b (ix2 a j) := by
  rw [layer_apply, layer_apply, hr]
  simp only [hx, hs]

/-- Row a' of the head of a block is row a of the head of the whole, when row a' of the block is row a of the whole. -/
theorem head_rows (M' : Nat) (H : (⟨2, ![M, 128]⟩ : Shape).Idx → EReal) (h : (⟨2, ![M', 128]⟩ : Shape).Idx → EReal)
    (wfc : (⟨2, ![128, 2]⟩ : Shape).Idx → EReal) (bfc : (⟨1, ![2]⟩ : Shape).Idx → EReal) (a : Fin M) (a' : Fin M')
    (hh : ∀ k : Fin 128, h (ix2 a' k) = H (ix2 a k)) (j : Fin 2) :
    head M' h wfc bfc (ix2 a' j) = head M H wfc bfc (ix2 a j) := by
  rw [head_apply, head_apply]
  simp only [hh]

/-! ## The matrix unit's spelling -/

/-- The layer as the matrix unit computes it, the nodes' own features given as the product's left operand. -/
theorem layer_of_matmul_gen {φ : FTy} (x : FVec Ideal ⟨2, ![M, 128]⟩ φ) (s : FVec Ideal ⟨2, ![M, 128]⟩ .f32) (ic : FVec Ideal ⟨2, ![M, 1]⟩ .f32)
    (wl wr : FVec Ideal ⟨2, ![128, 128]⟩ .f32) (b : FVec Ideal ⟨1, ![128]⟩ .f32)
    (hss : (⟨2, ![M, 128]⟩ : Shape).ShapeCasts ⟨2, ![M, 128]⟩) (hii : (⟨2, ![M, 1]⟩ : Shape).ShapeCasts ⟨2, ![M, 1]⟩)
    (hib : (⟨2, ![M, 1]⟩ : Shape).Broadcasts ⟨2, ![M, 128]⟩)
    (hb1 : (⟨1, ![128]⟩ : Shape).ShapeCasts ⟨2, ![1, 128]⟩) (hb2 : (⟨2, ![1, 128]⟩ : Shape).Broadcasts ⟨2, ![M, 128]⟩)
    (h1 h2 h4 h5 : FTy.bf16.bits < FTy.f32.bits) :
    (truncf .bf16 (maximumf (addf (addf
        (matmul (F := Ideal) (DotDims.plain M 128 128) none
          (truncf .bf16 (mulf (shapeCast ⟨2, ![M, 128]⟩ s hss) (broadcastTo ⟨2, ![M, 128]⟩ (shapeCast ⟨2, ![M, 1]⟩ ic hii) hib)) h1)
          (truncf .bf16 wl h2) (constant ⟨2, ![M, 128]⟩ .f32 0x00000000#32))
        (matmul (F := Ideal) (DotDims.plain M 128 128) none x (truncf .bf16 wr h4)
          (constant ⟨2, ![M, 128]⟩ .f32 0x00000000#32)))
        (broadcastTo ⟨2, ![M, 128]⟩ (shapeCast ⟨2, ![1, 128]⟩ b hb1) hb2))
      (broadcast ⟨2, ![M, 128]⟩ (Scalar.ofBits (F := Ideal) .f32 0x00000000#32))) h5 : FVec Ideal ⟨2, ![M, 128]⟩ .bf16)
      = layer M x s (fun a => ic (ix2 a (0 : Fin 1))) wl wr b := by
  funext i
  obtain ⟨a, j, rfl⟩ : ∃ (a : Fin M) (j : Fin 128), i = ix2 a j := ⟨i 0, i 1, eq_ix2 i⟩
  rw [truncf_apply, maximumf_apply, addf_apply, addf_apply, broadcast_apply, Cert.LibPlainDot.matmul_plain,
    Cert.LibPlainDot.matmul_plain, broadcastTo_1b_ab_apply, shapeCast_a_1a_apply, layer_apply]
  refine congr (congrArg max (congrArg (· + b (ix1 j)) (congrArg (· + _) (Finset.sum_congr rfl fun k _ => ?_)))) Ideal.ofBits_zero_f32
  show (mulf (shapeCast ⟨2, ![M, 128]⟩ s hss) (broadcastTo ⟨2, ![M, 128]⟩ (shapeCast ⟨2, ![M, 1]⟩ ic hii) hib)) (ix2 a k) * wl (ix2 k j) = _
  rw [mulf_apply, shapeCast_self, shapeCast_self, Cert.LibColumn.broadcastTo_a1_ab_apply]

/-- The layer as the matrix unit computes it from f32 node features, narrowed to 16 bits on the way in (the identity on
    the extended reals). -/
theorem layer_of_matmul (x s : FVec Ideal ⟨2, ![M, 128]⟩ .f32) (ic : FVec Ideal ⟨2, ![M, 1]⟩ .f32)
    (wl wr : FVec Ideal ⟨2, ![128, 128]⟩ .f32) (b : FVec Ideal ⟨1, ![128]⟩ .f32)
    (hss : (⟨2, ![M, 128]⟩ : Shape).ShapeCasts ⟨2, ![M, 128]⟩) (hii : (⟨2, ![M, 1]⟩ : Shape).ShapeCasts ⟨2, ![M, 1]⟩)
    (hib : (⟨2, ![M, 1]⟩ : Shape).Broadcasts ⟨2, ![M, 128]⟩)
    (hb1 : (⟨1, ![128]⟩ : Shape).ShapeCasts ⟨2, ![1, 128]⟩) (hb2 : (⟨2, ![1, 128]⟩ : Shape).Broadcasts ⟨2, ![M, 128]⟩)
    (h1 h2 h3 h4 h5 : FTy.bf16.bits < FTy.f32.bits) :
    (truncf .bf16 (maximumf (addf (addf
        (matmul (F := Ideal) (DotDims.plain M 128 128) none
          (truncf .bf16 (mulf (shapeCast ⟨2, ![M, 128]⟩ s hss) (broadcastTo ⟨2, ![M, 128]⟩ (shapeCast ⟨2, ![M, 1]⟩ ic hii) hib)) h1)
          (truncf .bf16 wl h2) (constant ⟨2, ![M, 128]⟩ .f32 0x00000000#32))
        (matmul (F := Ideal) (DotDims.plain M 128 128) none (truncf .bf16 x h3) (truncf .bf16 wr h4)
          (constant ⟨2, ![M, 128]⟩ .f32 0x00000000#32)))
        (broadcastTo ⟨2, ![M, 128]⟩ (shapeCast ⟨2, ![1, 128]⟩ b hb1) hb2))
      (broadcast ⟨2, ![M, 128]⟩ (Scalar.ofBits (F := Ideal) .f32 0x00000000#32))) h5 : FVec Ideal ⟨2, ![M, 128]⟩ .bf16)
      = layer M x s (fun a => ic (ix2 a (0 : Fin 1))) wl wr b :=
  layer_of_matmul_gen M (truncf .bf16 x h3) s ic wl wr b hss hii hib hb1 hb2 h1 h2 h4 h5

/-- The head over the layer as the matrix unit computes them from 16-bit node features: the layer's value narrowed to 16
    bits (the identity on the extended reals) feeds the head's product. -/
theorem head_of_matmul (h : FVec Ideal ⟨2, ![M, 128]⟩ .bf16) (s : FVec Ideal ⟨2, ![M, 128]⟩ .f32) (ic : FVec Ideal ⟨2, ![M, 1]⟩ .f32)
    (wl wr : FVec Ideal ⟨2, ![128, 128]⟩ .f32) (b : FVec Ideal ⟨1, ![128]⟩ .f32)
    (wfc : FVec Ideal ⟨2, ![128, 2]⟩ .f32) (bfc : FVec Ideal ⟨1, ![2]⟩ .f32)
    (hhh : (⟨2, ![M, 128]⟩ : Shape).ShapeCasts ⟨2, ![M, 128]⟩)
    (hss : (⟨2, ![M, 128]⟩ : Shape).ShapeCasts ⟨2, ![M, 128]⟩) (hii : (⟨2, ![M, 1]⟩ : Shape).ShapeCasts ⟨2, ![M, 1]⟩)
    (hib : (⟨2, ![M, 1]⟩ : Shape).Broadcasts ⟨2, ![M, 128]⟩)
    (hb1 : (⟨1, ![128]⟩ : Shape).ShapeCasts ⟨2, ![1, 128]⟩) (hb2 : (⟨2, ![1, 128]⟩ : Shape).Broadcasts ⟨2, ![M, 128]⟩)
    (hf1 : (⟨1, ![2]⟩ : Shape).ShapeCasts ⟨2, ![1, 2]⟩) (hf2 : (⟨2, ![1, 2]⟩ : Shape).Broadcasts ⟨2, ![M, 2]⟩)
    (h1 h2 h4 h5 h6 : FTy.bf16.bits < FTy.f32.bits) :
    addf (matmul (F := Ideal) (DotDims.plain M 128 2) none
        (truncf .bf16 (maximumf (addf (addf
          (matmul (F := Ideal) (DotDims.plain M 128 128) none
            (truncf .bf16 (mulf (shapeCast ⟨2, ![M, 128]⟩ s hss) (broadcastTo ⟨2, ![M, 128]⟩ (shapeCast ⟨2, ![M, 1]⟩ ic hii) hib)) h1)
            (truncf .bf16 wl h2) (constant ⟨2, ![M, 128]⟩ .f32 0x00000000#32))
          (matmul (F := Ideal) (DotDims.plain M 128 128) none (shapeCast ⟨2, ![M, 128]⟩ h hhh) (truncf .bf16 wr h4)
            (constant ⟨2, ![M, 128]⟩ .f32 0x00000000#32)))
          (broadcastTo ⟨2, ![M, 128]⟩ (shapeCast ⟨2, ![1, 128]⟩ b hb1) hb2))
        (broadcast ⟨2, ![M, 128]⟩ (Scalar.ofBits (F := Ideal) .f32 0x00000000#32))) h5)
        (truncf .bf16 wfc h6) (constant ⟨2, ![M, 2]⟩ .f32 0x00000000#32))
      (broadcastTo ⟨2, ![M, 2]⟩ (shapeCast ⟨2, ![1, 2]⟩ bfc hf1) hf2)
      = head M (layer M h s (fun a => ic (ix2 a (0 : Fin 1))) wl wr b) wfc bfc := by
  funext i
  obtain ⟨a, j, rfl⟩ : ∃ (a : Fin M) (j : Fin 2), i = ix2 a j := ⟨i 0, i 1, eq_ix2 i⟩
  rw [addf_apply, Cert.LibPlainDot.matmul_plain, broadcastTo_1b_ab_apply, shapeCast_a_1a_apply, head_apply,
    layer_of_matmul_gen M (shapeCast ⟨2, ![M, 128]⟩ h hhh) s ic wl wr b hss hii hib hb1 hb2 h1 h2 h4 h5, shapeCast_self]
  rfl

/-! ## The host's spelling -/

/-- The layer as the host computes it: the neighbour sums divided by the clamped in-degree c (nowhere 0), the bias added
    between the two products. -/
theorem layer_of_host (x s : FVec Ideal ⟨2, ![M, 128]⟩ .f32) (c : FVec Ideal ⟨1, ![M]⟩ .f32)
    (wl wr : FVec Ideal ⟨2, ![128, 128]⟩ .f32) (b : FVec Ideal ⟨1, ![128]⟩ .f32) (hc : ∀ a : Fin M, c (ix1 a) ≠ 0)
    (hc1 : (⟨1, ![M]⟩ : Shape).BroadcastsInDim ⟨2, ![M, 1]⟩ (![0] : Fin 1 → Fin 2))
    (hc2 : (⟨2, ![M, 1]⟩ : Shape).BroadcastsInDim ⟨2, ![M, 128]⟩ (![0, 1] : Fin 2 → Fin 2))
    (hb1 : (⟨1, ![128]⟩ : Shape).BroadcastsInDim ⟨2, ![1, 128]⟩ (![1] : Fin 1 → Fin 2))
    (hb2 : (⟨2, ![1, 128]⟩ : Shape).BroadcastsInDim ⟨2, ![M, 128]⟩ (![0, 1] : Fin 2 → Fin 2))
    (h0 : (⟨0, ![]⟩ : Shape).BroadcastsInDim ⟨2, ![M, 128]⟩ (![] : Fin 0 → Fin 2)) :
    maximumf (addf (addf
        (Host.dotGeneral (F := Ideal) (DotDims.plain M 128 128) none
          (Host.divf (F := Ideal) s (broadcastInDim ⟨2, ![M, 128]⟩ ![0, 1] hc2 (broadcastInDim ⟨2, ![M, 1]⟩ ![0] hc1 c))) wl)
        (broadcastInDim ⟨2, ![M, 128]⟩ ![0, 1] hb2 (broadcastInDim ⟨2, ![1, 128]⟩ ![1] hb1 b)))
        (Host.dotGeneral (F := Ideal) (DotDims.plain M 128 128) none x wr))
      (broadcastInDim ⟨2, ![M, 128]⟩ ![] h0 (constant (F := Ideal) ⟨0, ![]⟩ .f32 0x00000000#32))
      = layer M x s (fun a => (c (ix1 a))⁻¹) wl wr b := by
  funext i
  obtain ⟨a, j, rfl⟩ : ∃ (a : Fin M) (j : Fin 128), i = ix2 a j := ⟨i 0, i 1, eq_ix2 i⟩
  rw [maximumf_apply, addf_apply, addf_apply, Cert.LibPlainDot.dotGeneral_plain, Cert.LibPlainDot.dotGeneral_plain,
    Cert.LibHostBroadcast.vec_along_cols, Cert.LibHostBroadcast.scalar_to_any, constant_apply, layer_apply, add_right_comm]
  refine congr (congrArg max (congrArg (· + b (ix1 j)) (congrArg (· + _) (Finset.sum_congr rfl fun k _ => ?_)))) Ideal.ofBits_zero_f32
  show Ideal.div (s (ix2 a k)) (broadcastInDim ⟨2, ![M, 128]⟩ ![0, 1] hc2 (broadcastInDim ⟨2, ![M, 1]⟩ ![0] hc1 c) (ix2 a k)) * wl (ix2 k j) = _
  rw [Cert.LibHostBroadcast.vec_along_rows, div_eq_mul_inv (hc a)]

/-- The head as the host computes it. -/
theorem head_of_host (h : FVec Ideal ⟨2, ![M, 128]⟩ .f32) (wfc : FVec Ideal ⟨2, ![128, 2]⟩ .f32) (bfc : FVec Ideal ⟨1, ![2]⟩ .f32)
    (hf1 : (⟨1, ![2]⟩ : Shape).BroadcastsInDim ⟨2, ![1, 2]⟩ (![1] : Fin 1 → Fin 2))
    (hf2 : (⟨2, ![1, 2]⟩ : Shape).BroadcastsInDim ⟨2, ![M, 2]⟩ (![0, 1] : Fin 2 → Fin 2)) :
    addf (Host.dotGeneral (F := Ideal) (DotDims.plain M 128 2) none h wfc)
      (broadcastInDim ⟨2, ![M, 2]⟩ ![0, 1] hf2 (broadcastInDim ⟨2, ![1, 2]⟩ ![1] hf1 bfc))
      = head M h wfc bfc := by
  funext i
  obtain ⟨a, j, rfl⟩ : ∃ (a : Fin M) (j : Fin 2), i = ix2 a j := ⟨i 0, i 1, eq_ix2 i⟩
  rw [addf_apply, Cert.LibPlainDot.dotGeneral_plain, Cert.LibHostBroadcast.vec_along_cols, head_apply]
  rfl

/-! ## The in-degrees -/

/-- An in-degree clamped below at the word 1 is nowhere 0. -/
theorem clamped_ne_zero (cnt : FVec Ideal ⟨1, ![M]⟩ .f32)
    (h0 : (⟨0, ![]⟩ : Shape).BroadcastsInDim ⟨1, ![M]⟩ (![] : Fin 0 → Fin 1)) (a : Fin M) :
    maximumf cnt (broadcastInDim ⟨1, ![M]⟩ ![] h0 (constant (F := Ideal) ⟨0, ![]⟩ .f32 0x3F800000#32)) (ix1 a) ≠ 0 := by
  rw [maximumf_apply, Cert.LibHostBroadcast.scalar_to_any, constant_apply, one_f32]
  exact max_one_ne_zero _

/-- The column of reciprocals: 1 over the clamped in-degree, made a column, reads at row a the inverse of the clamped
    in-degree of a. -/
theorem recip_column (c : FVec Ideal ⟨1, ![M]⟩ .f32) (hc : ∀ a : Fin M, c (ix1 a) ≠ 0)
    (h0 : (⟨0, ![]⟩ : Shape).BroadcastsInDim ⟨1, ![M]⟩ (![] : Fin 0 → Fin 1))
    (hcc : (⟨1, ![M]⟩ : Shape).ShapeCasts ⟨2, ![M, 1]⟩) (a : Fin M) :
    shapeCast ⟨2, ![M, 1]⟩ (Host.divf (F := Ideal)
        (broadcastInDim ⟨1, ![M]⟩ ![] h0 (constant (F := Ideal) ⟨0, ![]⟩ .f32 0x3F800000#32)) c) hcc (ix2 a (0 : Fin 1))
      = (c (ix1 a))⁻¹ := by
  rw [Cert.LibColumn.shapeCast_a_a1_apply]
  show Ideal.div (broadcastInDim ⟨1, ![M]⟩ ![] h0 (constant (F := Ideal) ⟨0, ![]⟩ .f32 0x3F800000#32) (ix1 a)) (c (ix1 a)) = _
  rw [Cert.LibHostBroadcast.scalar_to_any, constant_apply, one_f32, one_div_eq_inv (hc a)]

end Cert.Sage

end
-- ==== Proof.Region0.lean ====
/-
  What the first pipelined region leaves in its output array.

  The region walks ten blocks of 4000 nodes. At block q its body reads rows q·4000 … q·4000+3999 of the nodes' features, of
  the neighbour sums and of the column of reciprocal in-degrees, and the whole of the two weights and of the bias, and
  writes the layer's value on those rows. A node's value depends on the inputs only through that node's row, so what is
  written back at block q is block q of the layer of the whole arrays; the ten blocks cover the 40000 rows, so the array
  ends holding the layer of the arrays as the region found them.
-/
import proofs.«176067_j51067161150195_2_alg».proof.Proof.Gen.KernelIdeal.Frame
import proofs.«176067_j51067161150195_2_alg».proof.Proof.Spec

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic on one block is the layer of the block's rows. -/
theorem payload_eq (x0 x1 : Vec Ideal S4000x128 .f32) (x2 : Vec Ideal S4000x1 .f32) (x3 x5 : Vec Ideal S128x128 .f32)
    (x4 : Vec Ideal S128 .f32) :
    k0_pay1 (F := Ideal) x0 x1 x2 x3 x5 x4 = Cert.Sage.layer 4000 x0 x1 (fun a => x2 (ix2 a (0 : Fin 1))) x3 x5 x4 := by
  unfold k0_pay1
  exact Cert.Sage.layer_of_matmul 4000 x0 x1 x2 x3 x5 x4 _ _ _ _ _ _ _ _ _ _

/-- The body's arithmetic on block q, whose rows are rows q·4000 … of the whole arrays, is the layer of the whole arrays
    on those rows. -/
theorem payload_block (X S : S40000x128.Idx → EReal) (IC : S40000x1.Idx → EReal) (WL WR : S128x128.Idx → EReal)
    (B : S128.Idx → EReal) (x0 x1 : Vec Ideal S4000x128 .f32) (x2 : Vec Ideal S4000x1 .f32)
    (x3 x5 : Vec Ideal S128x128 .f32) (x4 : Vec Ideal S128 .f32) (q : Nat) (hq : q < 10)
    (h0 : ∀ (p : Fin 4000) (k : Fin 128), x0 (ix2 p k) = X (ix2 (⟨q * 4000 + p.val, by omega⟩ : Fin 40000) k))
    (h1 : ∀ (p : Fin 4000) (k : Fin 128), x1 (ix2 p k) = S (ix2 (⟨q * 4000 + p.val, by omega⟩ : Fin 40000) k))
    (h2 : ∀ (p : Fin 4000), x2 (ix2 p (0 : Fin 1)) = IC (ix2 (⟨q * 4000 + p.val, by omega⟩ : Fin 40000) (0 : Fin 1)))
    (h3 : x3 = WL) (h4 : x4 = B) (h5 : x5 = WR) (p : Fin 4000) (j : Fin 128) :
    k0_pay1 (F := Ideal) x0 x1 x2 x3 x5 x4 (ix2 p j)
      = Cert.Sage.layer 40000 X S (fun a => IC (ix2 a (0 : Fin 1))) WL WR B (ix2 (⟨q * 4000 + p.val, by omega⟩ : Fin 40000) j) := by
  subst h3 h4 h5
  rw [payload_eq]
  exact Cert.Sage.layer_rows 40000 4000 X S (fun a => IC (ix2 a (0 : Fin 1))) x0 x1 (fun a => x2 (ix2 a (0 : Fin 1))) x3 x5 x4
    ⟨q * 4000 + p.val, by omega⟩ p (h0 p) (h1 p) (h2 p) j

/-- The printed index maps over the grid: the row blocks move with the point, the weights and the bias stay. -/
theorem idx_facts : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = win0_6.index t (0 : Fin 2)
    ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (1 : Fin 2) = 0
    ∧ win0_6.index t (0 : Fin 2) = t.val
    ∧ t.val < 10 :=
  (by decide +kernel : ∀ t : Fin grid0.N, _)

/-- A point's number is below 10. -/
theorem t_lt (t : Fin cfg0.N) : t.val < 10 := (idx_facts t).2.2.2.2.2.2.2.2.2.2.2.2.2

/-! ## The input blocks, read -/

theorem blk_0 (c : Dev nD) (t : Fin cfg0.N) (p : Fin 4000) (k : Fin 128) :
    iblk0 V c 0 t (ix2 p k) = V c main_arg0 (ix2 (⟨t.val * 4000 + p.val, by have := t_lt t; omega⟩ : Fin 40000) k) := by
  obtain ⟨e0, e1, e2, e3, e4, e5, e6, e7, e8, e9, e10, e11, e12, e13⟩ := idx_facts t
  show V c main_arg0 (((cfg0.win 0).blk t).view.emb (ix2 p k)) = _
  refine congrArg (V c main_arg0) ?_
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

theorem blk_1 (c : Dev nD) (t : Fin cfg0.N) (p : Fin 4000) (k : Fin 128) :
    iblk0 V c 1 t (ix2 p k) = V c main_v22 (ix2 (⟨t.val * 4000 + p.val, by have := t_lt t; omega⟩ : Fin 40000) k) := by
  obtain ⟨e0, e1, e2, e3, e4, e5, e6, e7, e8, e9, e10, e11, e12, e13⟩ := idx_facts t
  show V c main_v22 (((cfg0.win 1).blk t).view.emb (ix2 p k)) = _
  refine congrArg (V c main_v22) ?_
  funext a; apply Fin.ext
  match a with
  | ⟨0, _⟩ => show win0_1.index t (0 : Fin 2) * 4000 + 1 * p.val = t.val * 4000 + p.val; omega
  | ⟨1, _⟩ => show win0_1.index t (1 : Fin 2) * 128 + 1 * k.val = k.val; omega

theorem blk_2 (c : Dev nD) (t : Fin cfg0.N) (p : Fin 4000) :
    iblk0 V c 2 t (ix2 p (0 : Fin 1)) = V c main_v12 (ix2 (⟨t.val * 4000 + p.val, by have := t_lt t; omega⟩ : Fin 40000) (0 : Fin 1)) := by
  obtain ⟨e0, e1, e2, e3, e4, e5, e6, e7, e8, e9, e10, e11, e12, e13⟩ := idx_facts t
  show V c main_v12 (((cfg0.win 2).blk t).view.emb (ix2 p (0 : Fin 1))) = _
  refine congrArg (V c main_v12) ?_
  funext a; apply Fin.ext
  match a with
  | ⟨0, _⟩ => show win0_2.index t (0 : Fin 2) * 4000 + 1 * p.val = t.val * 4000 + p.val; omega
  | ⟨1, _⟩ => show win0_2.index t (1 : Fin 2) * 1 + 1 * 0 = 0; omega

theorem blk_3 (c : Dev nD) (t : Fin cfg0.N) : iblk0 V c 3 t = V c main_arg2 := by
  obtain ⟨e0, e1, e2, e3, e4, e5, e6, e7, e8, e9, e10, e11, e12, e13⟩ := idx_facts t
  funext y
  show V c main_arg2 (((cfg0.win 3).blk t).view.emb y) = V c main_arg2 y
  refine congrArg (V c main_arg2) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk_4 (c : Dev nD) (t : Fin cfg0.N) : iblk0 V c 4 t = V c main_arg3 := by
  obtain ⟨e0, e1, e2, e3, e4, e5, e6, e7, e8, e9, e10, e11, e12, e13⟩ := idx_facts t
  funext y
  show V c main_arg3 (((cfg0.win 4).blk t).view.emb y) = V c main_arg3 y
  refine congrArg (V c main_arg3) ?_
  funext a; apply Fin.ext
  match a with
  | ⟨0, _⟩ => show win0_4.index t (0 : Fin 1) * 128 + 1 * (y 0).val = (y 0).val; omega

theorem blk_5 (c : Dev nD) (t : Fin cfg0.N) : iblk0 V c 5 t = V c main_arg4 := by
  obtain ⟨e0, e1, e2, e3, e4, e5, e6, e7, e8, e9, e10, e11, e12, e13⟩ := idx_facts t
  funext y
  show V c main_arg4 (((cfg0.win 5).blk t).view.emb y) = V c main_arg4 y
  refine congrArg (V c main_arg4) ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-! ## What the region leaves -/

/-- The layer of the arrays as the region finds them. -/
def G (c : Dev nD) : S40000x128.Idx → EReal :=
  Cert.Sage.layer 40000 (V c main_arg0) (V c main_v22) (fun a => V c main_v12 (ix2 a (0 : Fin 1))) (V c main_arg2) (V c main_arg4) (V c main_arg3)

/-- What point t writes back is block t of the layer of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S4000x128) hz2, View.ld_unit_zero (S := S4000x1) hz2,
    View.ld_unit_zero (S := S128x128) hz2, View.ld_unit_zero (S := S128) hz1]
  obtain ⟨e0, e1, e2, e3, e4, e5, e6, e7, e8, e9, e10, e11, e12, e13⟩ := idx_facts t
  funext y
  show k0_pay1 (F := Ideal) (iblk0 V c 0 t) (iblk0 V c 1 t) (iblk0 V c 2 t) (iblk0 V c 3 t) (iblk0 V c 5 t) (iblk0 V c 4 t) y
    = G V c (((cfg0.win 6).blk t).view.emb y)
  have hy0 : (y 0).val < 4000 := (y 0).isLt
  have hy1 : (y 1).val < 128 := (y 1).isLt
  have he : ((cfg0.win 6).blk t).view.emb y
      = ix2 (⟨t.val * 4000 + (y 0).val, by omega⟩ : Fin 40000) (⟨(y 1).val, hy1⟩ : Fin 128) := by
    funext a; apply Fin.ext
    match a with
    | ⟨0, _⟩ => show win0_6.index t (0 : Fin 2) * 4000 + 1 * (y 0).val = t.val * 4000 + (y 0).val; omega
    | ⟨1, _⟩ => show win0_6.index t (1 : Fin 2) * 128 + 1 * (y 1).val = (y 1).val; omega
  rw [he]
  have hyy : y = ix2 (⟨(y 0).val, hy0⟩ : Fin 4000) (⟨(y 1).val, hy1⟩ : Fin 128) := by
    funext a; match a with | ⟨0, _⟩ => rfl | ⟨1, _⟩ => rfl
  refine (congrArg (k0_pay1 (F := Ideal) (iblk0 V c 0 t) (iblk0 V c 1 t) (iblk0 V c 2 t) (iblk0 V c 3 t) (iblk0 V c 5 t) (iblk0 V c 4 t)) hyy).trans ?_
  exact payload_block (V c main_arg0) (V c main_v22) (V c main_v12) (V c main_arg2) (V c main_arg4) (V c main_arg3)
    (iblk0 V c 0 t) (iblk0 V c 1 t) (iblk0 V c 2 t) (iblk0 V c 3 t) (iblk0 V c 5 t) (iblk0 V c 4 t) t.val e13
    (blk_0 V c t) (blk_1 V c t) (blk_2 V c t) (blk_3 V c t) (blk_4 V c t) (blk_5 V c t) ⟨(y 0).val, hy0⟩ ⟨(y 1).val, hy1⟩

/-- An index of the array is in point t's block iff each coordinate is in the block's range on its axis. -/
theorem mem_blk (t : Fin cfg0.N) (i : S40000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v23).slice (win0_6.rect t)).set ↔ _
  rw [View.set_slice_whole, Rect.mem_set_unit]
  exact Iff.rfl

/-- Row r lies in the block of point r / 4000. -/
theorem cover (i : S40000x128.Idx) :
    ∃ t : Fin cfg0.N, (cfg0.win 6).flush t = true ∧ i ∈ ((cfg0.win 6).blk t).view.set := by
  have hi0 : (i 0).val < 40000 := (i 0).isLt
  have hi1 : (i 1).val < 128 := (i 1).isLt
  have hN : cfg0.N = 10 := N_0
  obtain ⟨t, ht⟩ : ∃ t : Fin cfg0.N, t.val = (i 0).val / 4000 := ⟨⟨(i 0).val / 4000, by rw [hN]; omega⟩, rfl⟩
  obtain ⟨e0, e1, e2, e3, e4, e5, e6, e7, e8, e9, e10, e11, e12, e13⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- The array after the region: the layer of the arrays as the region found them. -/
theorem final (c : Dev nD) : (dat0 V c).arrAt 6 cfg0.N = G V c :=
  (dat0 V c).arrAt_eq_of_cover 6 (G V c) (fun t _ => flushed_eq V c t) cover

end Cert.KernelIdeal.Region0

end
-- ==== Proof.Region1.lean ====
/-
  What the second pipelined region leaves in its output array.

  The region walks ten blocks of 4000 nodes. At block q its body reads rows q·4000 … q·4000+3999 of the first layer's
  output, of the neighbour sums and of the column of reciprocal in-degrees, and the whole of the second layer's two
  weights and bias and of the head's weight and bias, and writes the head of the second layer on those rows. A node's value
  depends on the row-wise inputs only through that node's row, so what is written back at block q is block q of the head
  of the layer of the whole arrays; the ten blocks cover the 40000 rows, so the array ends holding that.
-/
import proofs.«176067_j51067161150195_2_alg».proof.Proof.Gen.KernelIdeal.Frame
import proofs.«176067_j51067161150195_2_alg».proof.Proof.Spec

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic on one block is the head of the layer of the block's rows. -/
theorem payload_eq (x0 : Vec Ideal S4000x128 .bf16) (x1 : Vec Ideal S4000x128 .f32) (x2 : Vec Ideal S4000x1 .f32)
    (x3 x5 : Vec Ideal S128x128 .f32) (x4 : Vec Ideal S128 .f32) (x6 : Vec Ideal S128x2 .f32) (x7 : Vec Ideal S2 .f32) :
    k1_pay1 (F := Ideal) x0 x1 x2 x3 x5 x4 x6 x7
      = Cert.Sage.head 4000 (Cert.Sage.layer 4000 x0 x1 (fun a => x2 (ix2 a (0 : Fin 1))) x3 x5 x4) x6 x7 := by
  unfold k1_pay1
  exact Cert.Sage.head_of_matmul 4000 x0 x1 x2 x3 x5 x4 x6 x7 _ _ _ _ _ _ _ _ _ _ _ _ _

/-- The body's arithmetic on block q, whose rows are rows q·4000 … of the whole arrays, is the head of the layer of the
    whole arrays on those rows. -/
theorem payload_block (X S : S40000x128.Idx → EReal) (IC : S40000x1.Idx → EReal) (WL WR : S128x128.Idx → EReal)
    (B : S128.Idx → EReal) (WF : S128x2.Idx → EReal) (BF : S2.Idx → EReal)
    (x0 : Vec Ideal S4000x128 .bf16) (x1 : Vec Ideal S4000x128 .f32) (x2 : Vec Ideal S4000x1 .f32)
    (x3 x5 : Vec Ideal S128x128 .f32) (x4 : Vec Ideal S128 .f32) (x6 : Vec Ideal S128x2 .f32) (x7 : Vec Ideal S2 .f32)
    (q : Nat) (hq : q < 10)
    (h0 : ∀ (p : Fin 4000) (k : Fin 128), x0 (ix2 p k) = X (ix2 (⟨q * 4000 + p.val, by omega⟩ : Fin 40000) k))
    (h1 : ∀ (p : Fin 4000) (k : Fin 128), x1 (ix2 p k) = S (ix2 (⟨q * 4000 + p.val, by omega⟩ : Fin 40000) k))
    (h2 : ∀ (p : Fin 4000), x2 (ix2 p (0 : Fin 1)) = IC (ix2 (⟨q * 4000 + p.val, by omega⟩ : Fin 40000) (0 : Fin 1)))
    (h3 : x3 = WL) (h4 : x4 = B) (h5 : x5 = WR) (h6 : x6 = WF) (h7 : x7 = BF) (p : Fin 4000) (j : Fin 2) :
    k1_pay1 (F := Ideal) x0 x1 x2 x3 x5 x4 x6 x7 (ix2 p j)
      = Cert.Sage.head 40000 (Cert.Sage.layer 40000 X S (fun a => IC (ix2 a (0 : Fin 1))) WL WR B) WF BF
          (ix2 (⟨q * 4000 + p.val, by omega⟩ : Fin 40000) j) := by
  subst h3 h4 h5 h6 h7
  rw [payload_eq]
  exact Cert.Sage.head_rows 40000 4000 _ _ x6 x7 ⟨q * 4000 + p.val, by omega⟩ p
    (fun k => Cert.Sage.layer_rows 40000 4000 X S (fun a => IC (ix2 a (0 : Fin 1))) x0 x1 (fun a => x2 (ix2 a (0 : Fin 1))) x3 x5 x4
      ⟨q * 4000 + p.val, by omega⟩ p (h0 p) (h1 p) (h2 p) k) j

/-- The printed index maps over the grid: the row blocks move with the point, the weights and the biases stay. -/
theorem idx_facts : ∀ t : Fin cfg1.N, win1_0.index t (0 : Fin 2) = win1_8.index t (0 : Fin 2)
    ∧ win1_0.index t (1 : Fin 2) = 0
    ∧ win1_1.index t (0 : Fin 2) = win1_8.index t (0 : Fin 2)
    ∧ win1_1.index t (1 : Fin 2) = 0
    ∧ win1_2.index t (0 : Fin 2) = win1_8.index t (0 : Fin 2)
    ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (1 : Fin 2) = 0
    ∧ win1_8.index t (0 : Fin 2) = t.val
    ∧ t.val < 10 :=
  (by decide +kernel : ∀ t : Fin grid1.N, _)

/-- A point's number is below 10. -/
theorem t_lt (t : Fin cfg1.N) : t.val < 10 := (idx_facts t).2.2.2.2.2.2.2.2.2.2.2.2.2.2.2.2

/-! ## The input blocks, read -/

theorem blk_0 (c : Dev nD) (t : Fin cfg1.N) (p : Fin 4000) (k : Fin 128) :
    iblk1 V c 0 t (ix2 p k) = V c main_v23 (ix2 (⟨t.val * 4000 + p.val, by have := t_lt t; omega⟩ : Fin 40000) k) := by
  obtain ⟨e0, e1, e2, e3, e4, e5, e6, e7, e8, e9, e10, e11, e12, e13, e14, e15, e16⟩ := idx_facts t
  show V c main_v23 (((cfg1.win 0).blk t).view.emb (ix2 p k)) = _
  refine congrArg (V c main_v23) ?_
  funext a; apply Fin.ext
  match a with
  | ⟨0, _⟩ => show win1_0.index t (0 : Fin 2) * 4000 + 1 * p.val = t.val * 4000 + p.val; omega
  | ⟨1, _⟩ => show win1_0.index t (1 : Fin 2) * 128 + 1 * k.val = k.val; omega

theorem blk_1 (c : Dev nD) (t : Fin cfg1.N) (p : Fin 4000) (k : Fin 128) :
    iblk1 V c 1 t (ix2 p k) = V c main_v34 (ix2 (⟨t.val * 4000 + p.val, by have := t_lt t; omega⟩ : Fin 40000) k) := by
  obtain ⟨e0, e1, e2, e3, e4, e5, e6, e7, e8, e9, e10, e11, e12, e13, e14, e15, e16⟩ := idx_facts t
  show V c main_v34 (((cfg1.win 1).blk t).view.emb (ix2 p k)) = _
  refine congrArg (V c main_v34) ?_
  funext a; apply Fin.ext
  match a with
  | ⟨0, _⟩ => show win1_1.index t (0 : Fin 2) * 4000 + 1 * p.val = t.val * 4000 + p.val; omega
  | ⟨1, _⟩ => show win1_1.index t (1 : Fin 2) * 128 + 1 * k.val = k.val; omega

theorem blk_2 (c : Dev nD) (t : Fin cfg1.N) (p : Fin 4000) :
    iblk1 V c 2 t (ix2 p (0 : Fin 1)) = V c main_v12 (ix2 (⟨t.val * 4000 + p.val, by have := t_lt t; omega⟩ : Fin 40000) (0 : Fin 1)) := by
  obtain ⟨e0, e1, e2, e3, e4, e5, e6, e7, e8, e9, e10, e11, e12, e13, e14, e15, e16⟩ := idx_facts t
  show V c main_v12 (((cfg1.win 2).blk t).view.emb (ix2 p (0 : Fin 1))) = _
  refine congrArg (V c main_v12) ?_
  funext a; apply Fin.ext
  match a with
  | ⟨0, _⟩ => show win1_2.index t (0 : Fin 2) * 4000 + 1 * p.val = t.val * 4000 + p.val; omega
  | ⟨1, _⟩ => show win1_2.index t (1 : Fin 2) * 1 + 1 * 0 = 0; omega

theorem blk_3 (c : Dev nD) (t : Fin cfg1.N) : iblk1 V c 3 t = V c main_arg5 := by
  obtain ⟨e0, e1, e2, e3, e4, e5, e6, e7, e8, e9, e10, e11, e12, e13, e14, e15, e16⟩ := idx_facts t
  funext y
  show V c main_arg5 (((cfg1.win 3).blk t).view.emb y) = V c main_arg5 y
  refine congrArg (V c main_arg5) ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blk_4 (c : Dev nD) (t : Fin cfg1.N) : iblk1 V c 4 t = V c main_arg6 := by
  obtain ⟨e0, e1, e2, e3, e4, e5, e6, e7, e8, e9, e10, e11, e12, e13, e14, e15, e16⟩ := idx_facts t
  funext y
  show V c main_arg6 (((cfg1.win 4).blk t).view.emb y) = V c main_arg6 y
  refine congrArg (V c main_arg6) ?_
  funext a; apply Fin.ext
  match a with
  | ⟨0, _⟩ => show win1_4.index t (0 : Fin 1) * 128 + 1 * (y 0).val = (y 0).val; omega

theorem blk_5 (c : Dev nD) (t : Fin cfg1.N) : iblk1 V c 5 t = V c main_arg7 := by
  obtain ⟨e0, e1, e2, e3, e4, e5, e6, e7, e8, e9, e10, e11, e12, e13, e14, e15, e16⟩ := idx_facts t
  funext y
  show V c main_arg7 (((cfg1.win 5).blk t).view.emb y) = V c main_arg7 y
  refine congrArg (V c main_arg7) ?_
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem blk_6 (c : Dev nD) (t : Fin cfg1.N) : iblk1 V c 6 t = V c main_arg8 := by
  obtain ⟨e0, e1, e2, e3, e4, e5, e6, e7, e8, e9, e10, e11, e12, e13, e14, e15, e16⟩ := idx_facts t
  funext y
  show V c main_arg8 (((cfg1.win 6).blk t).view.emb y) = V c main_arg8 y
  refine congrArg (V c main_arg8) ?_
  funext a; apply Fin.ext
  match a with
  | ⟨0, _⟩ => show win1_6.index t (0 : Fin 2) * 128 + 1 * (y 0).val = (y 0).val; omega
  | ⟨1, _⟩ => show win1_6.index t (1 : Fin 2) * 2 + 1 * (y 1).val = (y 1).val; omega

theorem blk_7 (c : Dev nD) (t : Fin cfg1.N) : iblk1 V c 7 t = V c main_arg9 := by
  obtain ⟨e0, e1, e2, e3, e4, e5, e6, e7, e8, e9, e10, e11, e12, e13, e14, e15, e16⟩ := idx_facts t
  funext y
  show V c main_arg9 (((cfg1.win 7).blk t).view.emb y) = V c main_arg9 y
  refine congrArg (V c main_arg9) ?_
  funext a; apply Fin.ext
  match a with
  | ⟨0, _⟩ => show win1_7.index t (0 : Fin 1) * 2 + 1 * (y 0).val = (y 0).val; omega

/-! ## What the region leaves -/

/-- The head of the layer of the arrays as the region finds them. -/
def G (c : Dev nD) : S40000x2.Idx → EReal :=
  Cert.Sage.head 40000 (Cert.Sage.layer 40000 (V c main_v23) (V c main_v34) (fun a => V c main_v12 (ix2 a (0 : Fin 1)))
    (V c main_arg5) (V c main_arg7) (V c main_arg6)) (V c main_arg8) (V c main_arg9)

/-- What point t writes back is block t of the head of the layer of the whole arrays. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz2]
  simp only [View.ld_unit_zero (S := S4000x128) hz2, View.ld_unit_zero (S := S4000x1) hz2,
    View.ld_unit_zero (S := S128x128) hz2, View.ld_unit_zero (S := S128) hz1, View.ld_unit_zero (S := S128x2) hz2,
    View.ld_unit_zero (S := S2) hz1]
  obtain ⟨e0, e1, e2, e3, e4, e5, e6, e7, e8, e9, e10, e11, e12, e13, e14, e15, e16⟩ := idx_facts t
  funext y
  show k1_pay1 (F := Ideal) (iblk1 V c 0 t) (iblk1 V c 1 t) (iblk1 V c 2 t) (iblk1 V c 3 t) (iblk1 V c 5 t) (iblk1 V c 4 t)
      (iblk1 V c 6 t) (iblk1 V c 7 t) y
    = G V c (((cfg1.win 8).blk t).view.emb y)
  have hy0 : (y 0).val < 4000 := (y 0).isLt
  have hy1 : (y 1).val < 2 := (y 1).isLt
  have he : ((cfg1.win 8).blk t).view.emb y
      = ix2 (⟨t.val * 4000 + (y 0).val, by omega⟩ : Fin 40000) (⟨(y 1).val, hy1⟩ : Fin 2) := by
    funext a; apply Fin.ext
    match a with
    | ⟨0, _⟩ => show win1_8.index t (0 : Fin 2) * 4000 + 1 * (y 0).val = t.val * 4000 + (y 0).val; omega
    | ⟨1, _⟩ => show win1_8.index t (1 : Fin 2) * 2 + 1 * (y 1).val = (y 1).val; omega
  rw [he]
  have hyy : y = ix2 (⟨(y 0).val, hy0⟩ : Fin 4000) (⟨(y 1).val, hy1⟩ : Fin 2) := by
    funext a; match a with | ⟨0, _⟩ => rfl | ⟨1, _⟩ => rfl
  refine (congrArg (k1_pay1 (F := Ideal) (iblk1 V c 0 t) (iblk1 V c 1 t) (iblk1 V c 2 t) (iblk1 V c 3 t) (iblk1 V c 5 t)
    (iblk1 V c 4 t) (iblk1 V c 6 t) (iblk1 V c 7 t)) hyy).trans ?_
  exact payload_block (V c main_v23) (V c main_v34) (V c main_v12) (V c main_arg5) (V c main_arg7) (V c main_arg6)
    (V c main_arg8) (V c main_arg9)
    (iblk1 V c 0 t) (iblk1 V c 1 t) (iblk1 V c 2 t) (iblk1 V c 3 t) (iblk1 V c 5 t) (iblk1 V c 4 t) (iblk1 V c 6 t)
    (iblk1 V c 7 t) t.val e16
    (blk_0 V c t) (blk_1 V c t) (blk_2 V c t) (blk_3 V c t) (blk_4 V c t) (blk_5 V c t) (blk_6 V c t) (blk_7 V c t)
    ⟨(y 0).val, hy0⟩ ⟨(y 1).val, hy1⟩

/-- An index of the array is in point t's block iff each coordinate is in the block's range on its axis. -/
theorem mem_blk (t : Fin cfg1.N) (i : S40000x2.Idx) :
    i ∈ ((cfg1.win 8).blk t).view.set ↔ ∀ a : Fin 2, win1_8.index t a * S4000x2.size a ≤ (i a).val
      ∧ (i a).val < win1_8.index t a * S4000x2.size a + S4000x2.size a := by
  show i ∈ ((View.whole main_v35).slice (win1_8.rect t)).set ↔ _
  rw [View.set_slice_whole, Rect.mem_set_unit]
  exact Iff.rfl

/-- Row r lies in the block of point r / 4000. -/
theorem cover (i : S40000x2.Idx) :
    ∃ t : Fin cfg1.N, (cfg1.win 8).flush t = true ∧ i ∈ ((cfg1.win 8).blk t).view.set := by
  have hi0 : (i 0).val < 40000 := (i 0).isLt
  have hi1 : (i 1).val < 2 := (i 1).isLt
  have hN : cfg1.N = 10 := N_1
  obtain ⟨t, ht⟩ : ∃ t : Fin cfg1.N, t.val = (i 0).val / 4000 := ⟨⟨(i 0).val / 4000, by rw [hN]; omega⟩, rfl⟩
  obtain ⟨e0, e1, e2, e3, e4, e5, e6, e7, e8, e9, e10, e11, e12, e13, e14, e15, e16⟩ := idx_facts t
  refine ⟨t, flush1_8 t, ?_⟩
  rw [mem_blk]
  intro a
  match a with
  | ⟨0, _⟩ =>
    show win1_8.index t (0 : Fin 2) * 4000 ≤ (i 0).val ∧ (i 0).val < win1_8.index t (0 : Fin 2) * 4000 + 4000
    omega
  | ⟨1, _⟩ =>
    show win1_8.index t (1 : Fin 2) * 2 ≤ (i 1).val ∧ (i 1).val < win1_8.index t (1 : Fin 2) * 2 + 2
    omega

/-- The array after the region: the head of the layer of the arrays as the region found them. -/
theorem final (c : Dev nD) : (dat1 V c).arrAt 8 cfg1.N = G V c :=
  (dat1 V c).arrAt_eq_of_cover 8 (G V c) (fun t _ => flushed_eq V c t) cover

end Cert.KernelIdeal.Region1

end
-- ==== Proof.KernelValue.lean ====
/-
  The idealized kernel's result as a function of its arguments.

  The buffer contents at the four boundaries of @main are a fold from the launch memory. Read at the buffers the regions
  use, the fold gives: before the first region, the neighbour sums of the nodes' features and the column of reciprocals
  of the clamped in-degrees; after it, the first layer; before the second region, the neighbour sums of the first layer;
  after it, the head of the second layer. Each host stretch is read operation by operation; each region leaves the layer
  (the head of the layer) of the arrays it found. The host's spelling of a layer divides by the clamped in-degree where
  the matrix unit multiplies by its reciprocal, and adds the bias between the two products instead of after them: the two
  are one function, so the result is the host program's own composed term of the arguments.
-/
import proofs.«176067_j51067161150195_2_alg».proof.Proof.Gen.KernelIdeal.Frame
import proofs.«176067_j51067161150195_2_alg».proof.Proof.Gen.ReferenceIdeal.Read
import proofs.«176067_j51067161150195_2_alg».proof.Proof.Region0
import proofs.«176067_j51067161150195_2_alg».proof.Proof.Region1
import proofs.«176067_j51067161150195_2_alg».proof.Proof.Spec
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.ValueIdx Idealize.ShloMosaic.StableHlo
open Idealize.SL.Sem
open Cert.ReferenceIdeal.Read (val_main_v1 val_main_v3 val_main_v13 val_main_v17 val_main_v19 val_main_v29 val_main_v39
  val_main_v43 val_main_v45 val_main_v55 val_main_v59)

variable (m : (ℓ : Loc nD τ sig) → Buf (Elt Ideal) ℓ) (ρ : Dev nD → PrngReg) (c : Dev nD)

/-! ## Before the first region -/

theorem V1_arg0 : V1 m ρ c main_arg0 = m ((c : Thread nD τ).loc main_arg0) := by
  show StableHlo.after hostOps0 (W0 m ρ c) (Proc.devRef .tc main_arg0) = _
  dsimp only [hostOps0]
  after_results_simp <;> rfl
theorem V1_arg2 : V1 m ρ c main_arg2 = m ((c : Thread nD τ).loc main_arg2) := by
  show StableHlo.after hostOps0 (W0 m ρ c) (Proc.devRef .tc main_arg2) = _
  dsimp only [hostOps0]
  after_results_simp <;> rfl
theorem V1_arg3 : V1 m ρ c main_arg3 = m ((c : Thread nD τ).loc main_arg3) := by
  show StableHlo.after hostOps0 (W0 m ρ c) (Proc.devRef .tc main_arg3) = _
  dsimp only [hostOps0]
  after_results_simp <;> rfl
theorem V1_arg4 : V1 m ρ c main_arg4 = m ((c : Thread nD τ).loc main_arg4) := by
  show StableHlo.after hostOps0 (W0 m ρ c) (Proc.devRef .tc main_arg4) = _
  dsimp only [hostOps0]
  after_results_simp <;> rfl

/-- The neighbour sums of the nodes' features. -/
theorem V1_v22 : V1 m ρ c main_v22
    = val_main_v13 (F := Ideal) (m ((c : Thread nD τ).loc main_arg0)) (m ((c : Thread nD τ).loc main_arg1)) := by
  show StableHlo.after hostOps0 (W0 m ρ c) (Proc.devRef .tc main_v22) = _
  dsimp only [hostOps0]
  after_results_simp <;> rfl

/-- The column of reciprocals of the clamped in-degrees. -/
theorem V1_v12 : V1 m ρ c main_v12
    = shapeCast S40000x1 (Host.divf (F := Ideal) (broadcastInDim S40000 ![] Facts₀.bcast_S_S40000 (constant (F := Ideal) S_ .f32 0x3F800000#32))
        (val_main_v19 (F := Ideal) (m ((c : Thread nD τ).loc main_arg1)))) Facts₀.shapeCasts_S40000_S40000x1 := by
  show StableHlo.after hostOps0 (W0 m ρ c) (Proc.devRef .tc main_v12) = _
  dsimp only [hostOps0]
  after_results_simp <;> rfl

/-- The clamped in-degree is nowhere 0. -/
theorem clamped_ne_zero (x1 : (⟨Cert.ReferenceIdeal.S2x640000, .i32⟩ : BufTy).Contents (Elt Ideal)) (a : Fin 40000) :
    val_main_v19 (F := Ideal) x1 (ix1 a) ≠ 0 :=
  Cert.Sage.clamped_ne_zero 40000 (val_main_v17 (F := Ideal) x1) Cert.ReferenceIdeal.Facts₀.bcast_S_S40000 a

/-- The column of reciprocals, read: at row a, the inverse of the clamped in-degree of a. -/
theorem recip_read (x1 : (⟨Cert.ReferenceIdeal.S2x640000, .i32⟩ : BufTy).Contents (Elt Ideal)) :
    (fun a : Fin 40000 => shapeCast S40000x1 (Host.divf (F := Ideal)
        (broadcastInDim S40000 ![] Facts₀.bcast_S_S40000 (constant (F := Ideal) S_ .f32 0x3F800000#32))
        (val_main_v19 (F := Ideal) x1)) Facts₀.shapeCasts_S40000_S40000x1 (ix2 a (0 : Fin 1)))
      = fun a : Fin 40000 => (val_main_v19 (F := Ideal) x1 (ix1 a))⁻¹ :=
  funext fun a => Cert.Sage.recip_column 40000 (val_main_v19 (F := Ideal) x1) (clamped_ne_zero x1) Facts₀.bcast_S_S40000
    Facts₀.shapeCasts_S40000_S40000x1 a

/-! ## After the first region: the first layer -/

theorem W2_v23 : W2 m ρ c (Proc.devRef .tc main_v23)
    = val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine ((W2_arr m ρ c 6).trans (Region0.final (V1 m ρ) c)).trans ?_
  unfold Region0.G
  rw [V1_arg0 m ρ c, V1_arg2 m ρ c, V1_arg3 m ρ c, V1_arg4 m ρ c, V1_v22 m ρ c, V1_v12 m ρ c,
    recip_read (m ((c : Thread nD τ).loc main_arg1))]
  exact (Cert.Sage.layer_of_host 40000 (m ((c : Thread nD τ).loc main_arg0))
    (val_main_v13 (F := Ideal) (m ((c : Thread nD τ).loc main_arg0)) (m ((c : Thread nD τ).loc main_arg1)))
    (val_main_v19 (F := Ideal) (m ((c : Thread nD τ).loc main_arg1)))
    (m ((c : Thread nD τ).loc main_arg2)) (m ((c : Thread nD τ).loc main_arg4)) (m ((c : Thread nD τ).loc main_arg3))
    (clamped_ne_zero (m ((c : Thread nD τ).loc main_arg1))) _ _ _ _ _).symm

/-! ## Before the second region -/

theorem W2_v1 : W2 m ρ c (Proc.devRef .tc main_v1) = val_main_v1 (F := Ideal) (m ((c : Thread nD τ).loc main_arg1)) := by
  refine (W2_of_ne m ρ c main_v1 (by decide)).trans ?_
  show StableHlo.after hostOps0 (W0 m ρ c) (Proc.devRef .tc main_v1) = _
  dsimp only [hostOps0]
  after_results_simp <;> rfl
theorem W2_v3 : W2 m ρ c (Proc.devRef .tc main_v3) = val_main_v3 (F := Ideal) (m ((c : Thread nD τ).loc main_arg1)) := by
  refine (W2_of_ne m ρ c main_v3 (by decide)).trans ?_
  show StableHlo.after hostOps0 (W0 m ρ c) (Proc.devRef .tc main_v3) = _
  dsimp only [hostOps0]
  after_results_simp <;> rfl
theorem W2_v12 : W2 m ρ c (Proc.devRef .tc main_v12) = V1 m ρ c main_v12 :=
  (W2_arr m ρ c 2).trans (((dat0 (V1 m ρ) c).arrAt_in 2 rfl _).trans (A_eq0 (V1 m ρ) c 2))
theorem W2_arg5 : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  dsimp only [hostOps0]
  after_results_simp <;> rfl
theorem W2_arg6 : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  dsimp only [hostOps0]
  after_results_simp <;> rfl
theorem W2_arg7 : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  dsimp only [hostOps0]
  after_results_simp <;> rfl
theorem W2_arg8 : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  dsimp only [hostOps0]
  after_results_simp <;> rfl
theorem W2_arg9 : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  dsimp only [hostOps0]
  after_results_simp <;> rfl

theorem V3_arg5 : V3 m ρ c main_arg5 = m ((c : Thread nD τ).loc main_arg5) := by
  refine Eq.trans ?_ (W2_arg5 m ρ c)
  show StableHlo.after hostOps1 (W2 m ρ c) (Proc.devRef .tc main_arg5) = _
  dsimp only [hostOps1]
  after_results_simp <;> rfl
theorem V3_arg6 : V3 m ρ c main_arg6 = m ((c : Thread nD τ).loc main_arg6) := by
  refine Eq.trans ?_ (W2_arg6 m ρ c)
  show StableHlo.after hostOps1 (W2 m ρ c) (Proc.devRef .tc main_arg6) = _
  dsimp only [hostOps1]
  after_results_simp <;> rfl
theorem V3_arg7 : V3 m ρ c main_arg7 = m ((c : Thread nD τ).loc main_arg7) := by
  refine Eq.trans ?_ (W2_arg7 m ρ c)
  show StableHlo.after hostOps1 (W2 m ρ c) (Proc.devRef .tc main_arg7) = _
  dsimp only [hostOps1]
  after_results_simp <;> rfl
theorem V3_arg8 : V3 m ρ c main_arg8 = m ((c : Thread nD τ).loc main_arg8) := by
  refine Eq.trans ?_ (W2_arg8 m ρ c)
  show StableHlo.after hostOps1 (W2 m ρ c) (Proc.devRef .tc main_arg8) = _
  dsimp only [hostOps1]
  after_results_simp <;> rfl
theorem V3_arg9 : V3 m ρ c main_arg9 = m ((c : Thread nD τ).loc main_arg9) := by
  refine Eq.trans ?_ (W2_arg9 m ρ c)
  show StableHlo.after hostOps1 (W2 m ρ c) (Proc.devRef .tc main_arg9) = _
  dsimp only [hostOps1]
  after_results_simp <;> rfl
theorem V3_v12 : V3 m ρ c main_v12 = V1 m ρ c main_v12 := by
  refine Eq.trans ?_ (W2_v12 m ρ c)
  show StableHlo.after hostOps1 (W2 m ρ c) (Proc.devRef .tc main_v12) = _
  dsimp only [hostOps1]
  after_results_simp <;> rfl
/-- The first layer, as the second region finds it. -/
theorem V3_v23 : V3 m ρ c main_v23
    = val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine Eq.trans ?_ (W2_v23 m ρ c)
  show StableHlo.after hostOps1 (W2 m ρ c) (Proc.devRef .tc main_v23) = _
  dsimp only [hostOps1]
  after_results_simp <;> rfl
/-- The neighbour sums of the first layer. -/
theorem V3_v34 : V3 m ρ c main_v34
    = val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  show StableHlo.after hostOps1 (W2 m ρ c) (Proc.devRef .tc main_v34) = _
  dsimp only [hostOps1]
  after_results_simp
  rw [W2_v1 m ρ c, W2_v3 m ρ c, W2_v23 m ρ c]
  rfl

/-! ## After the second region: the result -/

/-- The result buffer ends at the host program's own composed term of the arguments. -/
theorem result_eq : W4 m ρ c (Proc.devRef .tc main_v35)
    = val_main_v59 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  refine ((W4_arr m ρ c 8).trans (Region1.final (V3 m ρ) c)).trans ?_
  unfold Region1.G
  rw [V3_v23 m ρ c, V3_v34 m ρ c, V3_v12 m ρ c, V1_v12 m ρ c, V3_arg5 m ρ c, V3_arg6 m ρ c, V3_arg7 m ρ c, V3_arg8 m ρ c,
    V3_arg9 m ρ c, recip_read (m ((c : Thread nD τ).loc main_arg1))]
  have hc : ∀ a : Fin 40000, val_main_v45 (F := Ideal) (m ((c : Thread nD τ).loc main_arg1)) (ix1 a) ≠ 0 :=
    clamped_ne_zero (m ((c : Thread nD τ).loc main_arg1))
  have e55 := (Cert.Sage.layer_of_host 40000
    (val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)))
    (val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4)))
    (val_main_v45 (F := Ideal) (m ((c : Thread nD τ).loc main_arg1)))
    (m ((c : Thread nD τ).loc main_arg5)) (m ((c : Thread nD τ).loc main_arg7)) (m ((c : Thread nD τ).loc main_arg6)) hc
    Cert.ReferenceIdeal.Facts₀.bcast_S40000_S40000x1_0 Cert.ReferenceIdeal.Facts₀.bcast_S40000x1_S40000x128_0_1
    Cert.ReferenceIdeal.Facts₀.bcast_S128_S1x128_1 Cert.ReferenceIdeal.Facts₀.bcast_S1x128_S40000x128_0_1
    Cert.ReferenceIdeal.Facts₀.bcast_S_S40000x128).symm
  refine (congrArg (fun h => Cert.Sage.head 40000 h (m ((c : Thread nD τ).loc main_arg8)) (m ((c : Thread nD τ).loc main_arg9))) e55).trans ?_
  exact (Cert.Sage.head_of_host 40000 _ (m ((c : Thread nD τ).loc main_arg8)) (m ((c : Thread nD τ).loc main_arg9))
    Cert.ReferenceIdeal.Facts₀.bcast_S2_S1x2_1 Cert.ReferenceIdeal.Facts₀.bcast_S1x2_S40000x2_0_1).symm

end Cert.KernelIdeal.Result

end
-- ==== Proof.lean ====
/-
  A two-layer mean-aggregation graph network with a linear head: the kernel against its reference, on the extended reals.

  Both programs gather the source nodes' features along the edges and add them up at the destination nodes, count each
  node's incoming edges, and clamp the count below at 1. The reference divides the sums by the clamped count, multiplies
  by one weight, adds the bias, adds the nodes' own features times a second weight, and cuts off at 0; it does so twice and
  ends with a product by the head's weight plus the head's bias. The kernel computes the reciprocal of the clamped count
  once, and in two pipelined regions over blocks of 4000 nodes multiplies the sums by that reciprocal, adds the two
  products first and the bias last, and cuts off at 0; the second region also applies the head. Changes of float format are
  the identity on the extended reals and a product is the same sum whether it is taken block by block or whole. A
  quotient by a nonzero extended real is the product with its inverse, the clamped count is at least 1, and addition is
  commutative and associative: so the two programs compute one function of the arguments, and no finiteness of the inputs
  is used.

  The kernel's run is its four segments' run with the result buffer read at the last boundary (KernelRun), the boundary
  contents are read back to the arguments (KernelValue, over Region0, Region1 and Spec), and the reference's run is its
  operations' composed term. The idealized kernel is the kernel's own text read on the extended reals: nothing in it was
  rewritten, so that conjunct is trivial.
-/
import proofs.«176067_j51067161150195_2_alg».proof.Defs
import proofs.«176067_j51067161150195_2_alg».proof.Proof.Gen.Kernel
import proofs.«176067_j51067161150195_2_alg».proof.Proof.Gen.Kernel.Skeleton
import proofs.«176067_j51067161150195_2_alg».proof.Proof.Gen.Kernel.Launch
import proofs.«176067_j51067161150195_2_alg».proof.Proof.Gen.Kernel.Points
import proofs.«176067_j51067161150195_2_alg».proof.Proof.Gen.Kernel.Frame
import proofs.«176067_j51067161150195_2_alg».proof.Proof.Gen.KernelIdeal
import proofs.«176067_j51067161150195_2_alg».proof.Proof.Gen.KernelIdeal.Skeleton
import proofs.«176067_j51067161150195_2_alg».proof.Proof.Gen.KernelIdeal.Launch
import proofs.«176067_j51067161150195_2_alg».proof.Proof.Gen.KernelIdeal.Points
import proofs.«176067_j51067161150195_2_alg».proof.Proof.Gen.KernelIdeal.Frame
import proofs.«176067_j51067161150195_2_alg».proof.Proof.Gen.ReferenceIdeal
import proofs.«176067_j51067161150195_2_alg».proof.Proof.Gen.Pre_finite_inputs
import proofs.«176067_j51067161150195_2_alg».proof.Proof.Gen.ReferenceIdeal.Run
import proofs.«176067_j51067161150195_2_alg».proof.Proof.Gen.ReferenceIdeal.Read
import proofs.«176067_j51067161150195_2_alg».proof.Proof.KernelRun
import proofs.«176067_j51067161150195_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's composed term of the arguments in their result buffers. -/
theorem algebraic : Cert.algebraic_KernelIdeal_ReferenceIdeal := by
  intro m ρ m' ρ' _ hagree
  refine ⟨fun c => Cert.ReferenceIdeal.Read.val_main_v59 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.result_eq m ρ c), (h c).2⟩)
      (Cert.KernelIdeal.RunResult.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v59_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
